-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x2048 : Shape := ⟨2, ![1024, 2048]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S256x1024 .f32) (main_arg1 : FVec F S1024x2048 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S256x1024 : Shape := ⟨2, ![256, 1024]⟩
abbrev S1024x2048 : Shape := ⟨2, ![1024, 2048]⟩
abbrev S16x256x4 : Shape := ⟨3, ![16, 256, 4]⟩
abbrev S1024x128 : Shape := ⟨2, ![1024, 128]⟩
abbrev S1x256x4 : Shape := ⟨3, ![1, 256, 4]⟩
abbrev S256x128 : Shape := ⟨2, ![256, 128]⟩
abbrev S256x32 : Shape := ⟨2, ![256, 32]⟩
abbrev S32x256 : Shape := ⟨2, ![32, 256]⟩
abbrev S128x32 : Shape := ⟨2, ![128, 32]⟩
abbrev S128x32x1 : Shape := ⟨3, ![128, 32, 1]⟩
abbrev S1x32x256 : Shape := ⟨3, ![1, 32, 256]⟩
abbrev S128x32x256 : Shape := ⟨3, ![128, 32, 256]⟩
abbrev S128x256 : Shape := ⟨2, ![128, 256]⟩
abbrev S128 : Shape := ⟨1, ![128]⟩
abbrev S128x1 : Shape := ⟨2, ![128, 1]⟩
abbrev S1x128x1 : Shape := ⟨3, ![1, 128, 1]⟩
abbrev S256x16x4 : Shape := ⟨3, ![256, 16, 4]⟩
abbrev S256x64 : Shape := ⟨2, ![256, 64]⟩
abbrev S256x1088 : Shape := ⟨2, ![256, 1088]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S16x256x4, .f32⟩
  | .hbm, ⟨3, _⟩ => ⟨S256x16x4, .f32⟩
  | .hbm, ⟨4, _⟩ => ⟨S256x64, .f32⟩
  | .hbm, ⟨5, _⟩ => ⟨S256x1088, .f32⟩
  | .local _ .vmem, ⟨0, _⟩ => ⟨S256x1024, .f32⟩
  | .local _ .vmem, ⟨1, _⟩ => ⟨S1024x128, .f32⟩
  | .local _ .vmem, ⟨2, _⟩ => ⟨S1024x128, .f32⟩
  | .local _ .vmem, ⟨3, _⟩ => ⟨S1x256x4, .f32⟩
  | .local _ .vmem, ⟨4, _⟩ => ⟨S1x256x4, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  slices_S256x128_o0_0_S256x32 : S256x128.Slices ![0, 0] S256x32
  transposes_S256x32_p1_0_S32x256 : S256x32.Transposes [1, 0] S32x256
  slices_S256x32_o0_0_S128x32 : S256x32.Slices ![0, 0] S128x32
  shapeCasts_S128x32_S128x32x1 : S128x32.ShapeCasts S128x32x1
  shapeCasts_S32x256_S1x32x256 : S32x256.ShapeCasts S1x32x256
  broadcasts_S128x32x1_S128x32x256 : S128x32x1.Broadcasts S128x32x256
  broadcasts_S1x32x256_S128x32x256 : S1x32x256.Broadcasts S128x32x256
  reduces_S128x32x256_S128x256 : S128x32x256.Reduces [1] S128x256
  iota_S128x256_d0_w32 : S128x256.Iotas .tc 32 [0]
  iota_S128x256_d1_w32 : S128x256.Iotas .tc 32 [1]
  natLt_1_32 : 1 < 32
  reduces_S128x256_S128 : S128x256.Reduces [1] S128
  shapeCasts_S128_S128x1 : S128.ShapeCasts S128x1
  inb_S1x256x4_S1x128x1_0_0_0 : ∀ a, (![0, 0, 0] : Fin 3 → Nat) a + S1x128x1.size a ≤ S1x256x4.size a
  h_S1x128x1 : 0 < S1x128x1.numel
  shapeCasts_S1x128x1_S128x1 : S1x128x1.ShapeCasts S128x1
  shapeCasts_S128x1_S1x128x1 : S128x1.ShapeCasts S1x128x1
  slices_S256x32_o128_0_S128x32 : S256x32.Slices ![128, 0] S128x32
  inb_S1x256x4_S1x128x1_0_128_0 : ∀ a, (![0, 128, 0] : Fin 3 → Nat) a + S1x128x1.size a ≤ S1x256x4.size a
  slices_S256x128_o0_32_S256x32 : S256x128.Slices ![0, 32] S256x32
  inb_S1x256x4_S1x128x1_0_0_1 : ∀ a, (![0, 0, 1] : Fin 3 → Nat) a + S1x128x1.size a ≤ S1x256x4.size a
  inb_S1x256x4_S1x128x1_0_128_1 : ∀ a, (![0, 128, 1] : Fin 3 → Nat) a + S1x128x1.size a ≤ S1x256x4.size a
  slices_S256x128_o0_64_S256x32 : S256x128.Slices ![0, 64] S256x32
  inb_S1x256x4_S1x128x1_0_0_2 : ∀ a, (![0, 0, 2] : Fin 3 → Nat) a + S1x128x1.size a ≤ S1x256x4.size a
  inb_S1x256x4_S1x128x1_0_128_2 : ∀ a, (![0, 128, 2] : Fin 3 → Nat) a + S1x128x1.size a ≤ S1x256x4.size a
  slices_S256x128_o0_96_S256x32 : S256x128.Slices ![0, 96] S256x32
  inb_S1x256x4_S1x128x1_0_0_3 : ∀ a, (![0, 0, 3] : Fin 3 → Nat) a + S1x128x1.size a ≤ S1x256x4.size a
  inb_S1x256x4_S1x128x1_0_128_3 : ∀ a, (![0, 128, 3] : Fin 3 → Nat) a + S1x128x1.size a ≤ S1x256x4.size a
  transposes_S16x256x4_S256x16x4_1_0_2 : S16x256x4.Transposes [1, 0, 2] S256x16x4
  shapeCasts_S256x16x4_S256x64 : S256x16x4.ShapeCasts S256x64
  concatenates_S256x1024_S256x64_S256x1088_d1 : Shape.Concatenates [S256x1024, S256x64] S256x1088 1
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x2048.size a
  hwx0_1 : ∀ i : grid0.Coords, EltTy.bits .f32 = 32 ∨ (Rect.block (s := S1024x2048) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4.size a ≤ S16x256x4.size a
  hwx0_2 : ∀ i : grid0.Coords, EltTy.bits .f32 = 32 ∨ (Rect.block (s := S16x256x4) S1x256x4.size (cc0_transform_2 i) (hinb0_2 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x2048 : Shape := ⟨2, ![1024, 2048]⟩
abbrev S256x2048 : Shape := ⟨2, ![256, 2048]⟩
abbrev S256x64x32 : Shape := ⟨3, ![256, 64, 32]⟩
abbrev S256x64x32x1 : Shape := ⟨4, ![256, 64, 32, 1]⟩
abbrev S64x32x256 : Shape := ⟨3, ![64, 32, 256]⟩
abbrev S1x64x32x256 : Shape := ⟨4, ![1, 64, 32, 256]⟩
abbrev S256x64x32x256 : Shape := ⟨4, ![256, 64, 32, 256]⟩
abbrev S_ : Shape := ⟨0, ![]⟩
abbrev S256x64x256 : Shape := ⟨3, ![256, 64, 256]⟩
abbrev S256x256 : Shape := ⟨2, ![256, 256]⟩
abbrev S256x1x256 : Shape := ⟨3, ![256, 1, 256]⟩
abbrev S256x64 : Shape := ⟨2, ![256, 64]⟩
abbrev S256x1088 : Shape := ⟨2, ![256, 1088]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .hbm, ⟨3, _⟩ => ⟨S256x64x32, .f32⟩
  | .hbm, ⟨4, _⟩ => ⟨S256x64x32x1, .f32⟩
  | .hbm, ⟨5, _⟩ => ⟨S64x32x256, .f32⟩
  | .hbm, ⟨6, _⟩ => ⟨S1x64x32x256, .f32⟩
  | .hbm, ⟨7, _⟩ => ⟨S256x64x32x256, .f32⟩
  | .hbm, ⟨8, _⟩ => ⟨S256x64x32x256, .f32⟩
  | .hbm, ⟨9, _⟩ => ⟨S256x64x32x256, .f32⟩
  | .hbm, ⟨10, _⟩ => ⟨S256x64x32x256, .f32⟩
  | .hbm, ⟨11, _⟩ => ⟨S_, .f32⟩
  | .hbm, ⟨12, _⟩ => ⟨S256x64x256, .f32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .f32⟩
  | .hbm, ⟨20, _⟩ => ⟨S256x1x256, .f32⟩
  | .hbm, ⟨21, _⟩ => ⟨S_, .f32⟩
  | .hbm, ⟨22, _⟩ => ⟨S256x1x256, .f32⟩
  | .hbm, ⟨23, _⟩ => ⟨S256x1x256, .f32⟩
  | .hbm, ⟨24, _⟩ => ⟨S256x64x256, .f32⟩
  | .hbm, ⟨25, _⟩ => ⟨S256x64x256, .f32⟩
  | .hbm, ⟨26, _⟩ => ⟨S256x64x256, .f32⟩
  | .hbm, ⟨27, _⟩ => ⟨S256x64x256, .f32⟩
  | .hbm, ⟨28, _⟩ => ⟨S_, .f32⟩
  | .hbm, ⟨29, _⟩ => ⟨S256x64, .f32⟩
  | .hbm, ⟨30, _⟩ => ⟨S256x1088, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  shapeCasts_S256x2048_S256x64x32 : S256x2048.ShapeCasts S256x64x32
  bcast_S256x64x32_S256x64x32x1_0_1_2 : S256x64x32.BroadcastsInDim S256x64x32x1 (![0, 1, 2] : Fin 3 → Fin S256x64x32x1.rank)
  transposes_S256x64x32_S64x32x256_1_2_0 : S256x64x32.Transposes [1, 2, 0] S64x32x256
  bcast_S64x32x256_S1x64x32x256_1_2_3 : S64x32x256.BroadcastsInDim S1x64x32x256 (![1, 2, 3] : Fin 3 → Fin S1x64x32x256.rank)
  bcast_S256x64x32x1_S256x64x32x256_0_1_2_3 : S256x64x32x1.BroadcastsInDim S256x64x32x256 (![0, 1, 2, 3] : Fin 4 → Fin S256x64x32x256.rank)
  bcast_S1x64x32x256_S256x64x32x256_0_1_2_3 : S1x64x32x256.BroadcastsInDim S256x64x32x256 (![0, 1, 2, 3] : Fin 4 → Fin S256x64x32x256.rank)
  reducesTo_S256x64x32x256_S256x64x256_d2 : S256x64x32x256.ReducesTo [2] S256x64x256
  h_S_ : 0 < S_.numel
  bcast_S_S256x256 : S_.BroadcastsInDim S256x256 (![] : Fin 0 → Fin S256x256.rank)
  bcast_S256x256_S256x1x256_0_2 : S256x256.BroadcastsInDim S256x1x256 (![0, 2] : Fin 2 → Fin S256x1x256.rank)
  bcast_S_S256x1x256 : S_.BroadcastsInDim S256x1x256 (![] : Fin 0 → Fin S256x1x256.rank)
  bcast_S256x1x256_S256x64x256_0_1_2 : S256x1x256.BroadcastsInDim S256x64x256 (![0, 1, 2] : Fin 3 → Fin S256x64x256.rank)
  reducesTo_S256x64x256_S256x64_d2 : S256x64x256.ReducesTo [2] S256x64
  concatenates_S256x1024_S256x64_S256x1088_d1 : Shape.Concatenates [S256x1024, S256x64] S256x1088 1
  dot_S256x1024_S1024x2048_S256x2048_1_0_0_1_n_n_wf : DotDims.WF S256x1024 S1024x2048 S256x2048 [1] [0] [0] [1] [] []

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

class Facts : Prop extends Facts₀ where

variable [Facts]
-- ==== Proof.LibIndicator.lean ====
/-
  The indicator of an equality of two numbers, as the programs compute it from 32-bit words.

  A mask such as an identity matrix is computed by comparing a row number with a column number, both 32-bit
  words, and turning the one-bit answer into a float: either widened to 32 bits and read as a signed integer, or read
  directly as an unsigned integer. On the extended reals both are the indicator `[i = k]` (1 if equal, 0 if not), as
  long as the numbers fit in 32 bits. A row number may be given as a tile's first row plus a local row.
-/
import Idealize.ShloMosaic.PureOps.Ideal
import Idealize.ShloMosaic.PureOps.Ideal.Laws

noncomputable section

namespace Cert.Lib.Indicator

open Idealize.ShloMosaic

/-- The indicator of `i = k` as an extended real. -/
def ind (i k : ℕ) : EReal := if i = k then 1 else 0

/-- Two naturals below 2³² are equal iff their 32-bit words are. -/
theorem ofNat_eq_iff (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The one-bit answer of a word comparison, widened to 32 bits and read as a signed integer, is 1 or 0. -/
theorem signed_bit (a b : BitVec 32) :
    ((((BitVec.ofBool (a == b)).setWidth 32).toInt : ℝ) : EReal) = if a = b then 1 else 0 := by
  by_cases h : a = b
  · subst h
    rw [if_pos rfl, beq_self_eq_true]
    show ((((1#1 : BitVec 1).setWidth 32).toInt : ℝ) : EReal) = 1
    rw [show ((1#1 : BitVec 1).setWidth 32).toInt = 1 by decide]
    simp
  · rw [if_neg h, show (a == b) = false from beq_false_of_ne h]
    show ((((0#1 : BitVec 1).setWidth 32).toInt : ℝ) : EReal) = 0
    rw [show ((0#1 : BitVec 1).setWidth 32).toInt = 0 by decide]
    simp

/-- The same answer read directly as an unsigned integer is 1 or 0 too. -/
theorem unsigned_bit (a b : BitVec 32) :
    (((BitVec.ofBool (a == b)).toNat : ℝ) : EReal) = if a = b then 1 else 0 := by
  by_cases h : a = b
  · subst h
    rw [if_pos rfl, beq_self_eq_true]
    show ((((1#1 : BitVec 1)).toNat : ℝ) : EReal) = 1
    rw [show ((1#1 : BitVec 1)).toNat = 1 by decide]
    simp
  · rw [if_neg h, show (a == b) = false from beq_false_of_ne h]
    show ((((0#1 : BitVec 1)).toNat : ℝ) : EReal) = 0
    rw [show ((0#1 : BitVec 1)).toNat = 0 by decide]
    simp

/-- Row `ro + r` (a tile's first row plus a local row, added as words) against column `k`, the answer widened and read
    signed: the indicator of `ro + r = k`. -/
theorem ind_of_signed (ro r k : ℕ) (h : ro + r < 2 ^ 32) (hk : k < 2 ^ 32) :
    FloatOps.sitofp (F := Ideal) .f32
        ((IntOp.cmpi .eq (IntOp.addi (BitVec.ofNat 32 ro) (BitVec.ofNat 32 r)) (BitVec.ofNat 32 k)).setWidth 32)
      = ind (ro + r) k := by
  show ((((BitVec.ofBool (BitVec.ofNat 32 ro + BitVec.ofNat 32 r == BitVec.ofNat 32 k)).setWidth 32).toInt : ℝ) : EReal) = _
  rw [signed_bit, ← BitVec.ofNat_add]
  unfold ind
  by_cases e : ro + r = k
  · rw [if_pos e, if_pos ((ofNat_eq_iff _ _ h hk).2 e)]
  · rw [if_neg e, if_neg (fun h' => e ((ofNat_eq_iff _ _ h hk).1 h'))]

/-- Row `i` (with a zero word added, as an identity matrix with no offset is written) against column `k`, the answer
    read unsigned: the indicator of `i = k`. -/
theorem ind_of_unsigned (i k : ℕ) (hi : i < 2 ^ 32) (hk : k < 2 ^ 32) :
    FloatOps.uitofp (F := Ideal) .f32 (IntOp.cmpi .eq (IntOp.addi (BitVec.ofNat 32 i) 0#32) (BitVec.ofNat 32 k))
      = ind i k := by
  show ((((BitVec.ofBool (BitVec.ofNat 32 i + 0#32 == BitVec.ofNat 32 k))).toNat : ℝ) : EReal) = _
  rw [unsigned_bit, BitVec.add_zero]
  unfold ind
  by_cases e : i = k
  · rw [if_pos e, if_pos ((ofNat_eq_iff _ _ hi hk).2 e)]
  · rw [if_neg e, if_neg (fun h' => e ((ofNat_eq_iff _ _ hi hk).1 h'))]

end Cert.Lib.Indicator

end
-- ==== Proof.Spec.lean ====
/-
  The function both programs compute, stated once over the extended reals.

  For a matrix `M` of 256 rows and 32 columns (one slot of the product `x · T`: row `i` is sample `i`'s
  32 features in that slot), sample `i`'s value is the sum over all samples `k` of
  `exp (-(‖M i - M k‖₁ + 10⁶ · [i = k]))`: the L1 distance between rows `i` and `k`, pushed to a huge
  number on the diagonal so that a sample does not count itself. The indicator `[i = k]`, and that each program's
  way of computing it from integer row and column numbers gives it, is the indicator module's.
-/
import proofs.«159920_j62869731279616_2_alg».proof.Proof.LibIndicator

noncomputable section

namespace Cert.PairwiseL1

open Idealize.ShloMosaic

export Cert.Lib.Indicator (ind ind_of_signed ind_of_unsigned)

/-- The diagonal penalty, 10⁶, as the float word both programs write. -/
def penalty : EReal := Ideal.ofBits .f32 0x49742400#32

/-- One pair's contribution: `exp` of minus (the L1 distance of rows `i` and `k`, plus the penalty when `i = k`).
    The absolute value is written `max d (-d)`, as both programs' `abs` reads on the extended reals. -/
def pairTerm (M : Fin 256 → Fin 32 → EReal) (i k : Fin 256) : EReal :=
  Ideal.exp (-((∑ c : Fin 32, max (M i c - M k c) (-(M i c - M k c))) + penalty * ind i.val k.val))

/-- Sample `i`'s value: the sum of its pair contributions over all samples. -/
def rowSum (M : Fin 256 → Fin 32 → EReal) (i : Fin 256) : EReal := ∑ k : Fin 256, pairTerm M i k

end Cert.PairwiseL1

end
-- ==== Proof.Tile.lean ====
/-
  One tile of the kernel body, as a function and read at an index.

  The body handles a block of 128 columns of the product `m = x · T_block` as four slots of 32 columns, and each
  slot as two tiles of 128 query rows. For one slot (a 256 × 32 matrix `mj`) and one tile of query rows `mi`
  (128 × 32, rows `ro … ro + 127` of `mj`), the body forms the 128 × 32 × 256 array of differences
  `mi[r, c] - mj[k, c]`, sums absolute values over `c`, adds 10⁶ where the query row's number `ro + r`
  equals the key's number `k`, negates, exponentiates and sums over the 256 keys `k`.
  All eight stores of the body are this one function at different column and row offsets.
-/
import proofs.«159920_j62869731279616_2_alg».proof.Proof.Gen.KernelIdeal.Skeleton
import proofs.«159920_j62869731279616_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.PairwiseL1

open Idealize.ShloMosaic Idealize.ShloMosaic.ValueIdx Cert.KernelIdeal Cert.KernelIdeal.Gen

variable {F : FTy → Type} [FloatOps F]

/-! ## The tile, layer by layer -/

/-- The L1 distances between the 128 query rows and the 256 keys of one slot. -/
def dist (mi : FVec F S128x32 .f32) (mjT : FVec F S32x256 .f32) : FVec F S128x256 .f32 :=
  multiReduction .add [1] S128x256
    (absf (subf (broadcastTo S128x32x256 (shapeCast S128x32x1 mi shapeCasts_S128x32_S128x32x1) broadcasts_S128x32x1_S128x32x256)
      (broadcastTo S128x32x256 (shapeCast S1x32x256 mjT shapeCasts_S32x256_S1x32x256) broadcasts_S1x32x256_S128x32x256)))
    0x00000000#32 reduces_S128x32x256_S128x256 (.inl rfl) rfl

/-- The diagonal mask of the tile whose first query row is number `off`. -/
def mask (off : BitVec 32) : FVec F S128x256 .f32 :=
  sitofp .f32 (extui 32 (cmpi .eq (addi (broadcast S128x256 off) (iota .tc S128x256 32 [0] iota_S128x256_d0_w32))
    (iota .tc S128x256 32 [1] iota_S128x256_d1_w32)) natLt_1_32)

/-- The exponentials `exp (0 - (distance + 10⁶ · mask))`. -/
def weights (mi : FVec F S128x32 .f32) (mjT : FVec F S32x256 .f32) (off : BitVec 32) : FVec F S128x256 .f32 :=
  exp (subf (broadcast S128x256 (Scalar.ofBits .f32 0x00000000#32))
    (addf (dist mi mjT) (mulf (broadcast S128x256 (Scalar.ofBits .f32 0x49742400#32)) (mask off))))

/-- The tile's 128 values, as the column the body stores. -/
def tile (mi : FVec F S128x32 .f32) (mjT : FVec F S32x256 .f32) (off : BitVec 32) : FVec F S1x128x1 .f32 :=
  shapeCast S1x128x1 (shapeCast S128x1
    (multiReduction .add [1] S128 (weights mi mjT off) 0x00000000#32 reduces_S128x256_S128 (.inl rfl) rfl)
    shapeCasts_S128_S128x1) shapeCasts_S128x1_S1x128x1

/-- The tile of query rows `ro … ro + 127` of the slot at columns `o … o + 31` of the block product `v4`. -/
def slotTile (v4 : FVec F S256x128 .f32) (o : Nat) (ho : S256x128.Slices ![0, o] S256x32)
    (ro : Nat) (hro : S256x32.Slices ![ro, 0] S128x32) (off : BitVec 32) : FVec F S1x128x1 .f32 :=
  tile (extractStridedSlice S128x32 ![ro, 0] (extractStridedSlice S256x32 ![0, o] v4 ho) hro)
    (transpose S32x256 [1, 0] (extractStridedSlice S256x32 ![0, o] v4 ho) transposes_S256x32_p1_0_S32x256) off

/-! ## The eight stored values are tiles -/

theorem store_s0_t0 (X0 : Vec F S256x1024 .f32) (X1 : Vec F S1024x128 .f32) :
    k0_pay5 X0 X1 = slotTile (k0_pay2 X0 X1) 0 slices_S256x128_o0_0_S256x32 0 slices_S256x32_o0_0_S128x32 0#32 := rfl
theorem store_s0_t1 (X0 : Vec F S256x1024 .f32) (X1 : Vec F S1024x128 .f32) :
    k0_pay8 (k0_pay6 X0 X1) (iota .tc S128x256 32 [0] iota_S128x256_d0_w32) k0_pay7
      = slotTile (k0_pay2 X0 X1) 0 slices_S256x128_o0_0_S256x32 128 slices_S256x32_o128_0_S128x32 128#32 := rfl
theorem store_s1_t0 (v4 : FVec F S256x128 .f32) :
    k0_pay11 v4 = slotTile v4 32 slices_S256x128_o0_32_S256x32 0 slices_S256x32_o0_0_S128x32 0#32 := rfl
theorem store_s1_t1 (v4 : FVec F S256x128 .f32) :
    k0_pay12 (k0_pay9 v4) (k0_pay10 v4) = slotTile v4 32 slices_S256x128_o0_32_S256x32 128 slices_S256x32_o128_0_S128x32 128#32 := rfl
theorem store_s2_t0 (v4 : FVec F S256x128 .f32) :
    k0_pay17 (k0_pay15 v4) (k0_pay16 (F := F)) = slotTile v4 64 slices_S256x128_o0_64_S256x32 0 slices_S256x32_o0_0_S128x32 0#32 := rfl
theorem store_s2_t1 (v4 : FVec F S256x128 .f32) :
    k0_pay18 (k0_pay13 v4) (k0_pay14 v4) = slotTile v4 64 slices_S256x128_o0_64_S256x32 128 slices_S256x32_o128_0_S128x32 128#32 := rfl
theorem store_s3_t0 (v4 : FVec F S256x128 .f32) :
    k0_pay22 (k0_pay21 v4) (iota .tc S128x256 32 [0] iota_S128x256_d0_w32) 0#32
      = slotTile v4 96 slices_S256x128_o0_96_S256x32 0 slices_S256x32_o0_0_S128x32 0#32 := rfl
theorem store_s3_t1 (v4 : FVec F S256x128 .f32) :
    k0_pay1 (k0_pay23 (k0_pay19 v4) (k0_pay20 v4)) = slotTile v4 96 slices_S256x128_o0_96_S256x32 128 slices_S256x32_o128_0_S128x32 128#32 := rfl

/-! ## Read at an index, on the extended reals -/

/-- The distance of query row `r` and key `k`: the sum over the 32 columns of the absolute differences. -/
theorem dist_apply (mi : FVec Ideal S128x32 .f32) (mjT : FVec Ideal S32x256 .f32) (r : Fin 128) (k : Fin 256) :
    dist mi mjT (ix2 r k)
      = ∑ c : Fin 32, max (mi (ix2 r c) - mjT (ix2 c k)) (-(mi (ix2 r c) - mjT (ix2 c k))) := by
  unfold dist
  refine (Ideal.multiReduction_add_single _ 0x00000000#32 reduces_S128x32x256_S128x256 (.inl rfl) rfl (ix2 r k)).trans ?_
  refine Finset.sum_congr rfl fun (c : Fin 32) _ => ?_
  have hl : reduces_S128x32x256_S128x256.lift (ix2 r k) c = ix3 r c k :=
    funext fun a => Fin.ext (by match a with | ⟨0, _⟩ => rfl | ⟨1, _⟩ => rfl | ⟨2, _⟩ => rfl)
  rw [hl]
  have e1 : broadcastTo S128x32x256 (shapeCast S128x32x1 mi shapeCasts_S128x32_S128x32x1) broadcasts_S128x32x1_S128x32x256 (ix3 r c k)
      = mi (ix2 r c) := by
    refine (broadcastTo_apply _ _ (ix3 r c k) (ix3 r c (0 : Fin 1))
      (fun a => by match a with | ⟨0, _⟩ => rfl | ⟨1, _⟩ => rfl | ⟨2, _⟩ => rfl)).trans ?_
    exact shapeCast_apply mi _ _ (ix2 r c) (by
      rw [Shape.rowMajor_val_two, Shape.rowMajor_val_three]
      show r.val * 32 + c.val = (r.val * 32 + c.val) * 1 + 0
      omega)
  have e2 : broadcastTo S128x32x256 (shapeCast S1x32x256 mjT shapeCasts_S32x256_S1x32x256) broadcasts_S1x32x256_S128x32x256 (ix3 r c k)
      = mjT (ix2 c k) := by
    refine (broadcastTo_apply _ _ (ix3 r c k) (ix3 (0 : Fin 1) c k)
      (fun a => by match a with | ⟨0, _⟩ => rfl | ⟨1, _⟩ => rfl | ⟨2, _⟩ => rfl)).trans ?_
    exact shapeCast_ab_1ab_apply mjT _ 0 c k
  show FloatOps.absf (FloatOps.subf
      (broadcastTo S128x32x256 (shapeCast S128x32x1 mi shapeCasts_S128x32_S128x32x1) broadcasts_S128x32x1_S128x32x256 (ix3 r c k))
      (broadcastTo S128x32x256 (shapeCast S1x32x256 mjT shapeCasts_S32x256_S1x32x256) broadcasts_S1x32x256_S128x32x256 (ix3 r c k))) = _
  rw [e1, e2]
  rfl

/-- The mask at local query row `r` of the tile starting at row `ro`, key `k`: the indicator of `ro + r = k`. -/
theorem mask_apply (ro : ℕ) (h : ro + 128 ≤ 256) (r : Fin 128) (k : Fin 256) :
    mask (F := Ideal) (BitVec.ofNat 32 ro) (ix2 r k) = ind (ro + r.val) k.val := by
  unfold mask
  show FloatOps.sitofp (F := Ideal) .f32 ((IntOp.cmpi .eq (IntOp.addi (BitVec.ofNat 32 ro)
      (iota .tc S128x256 32 [0] iota_S128x256_d0_w32 (ix2 r k))) (iota .tc S128x256 32 [1] iota_S128x256_d1_w32 (ix2 r k))).setWidth 32) = _
  rw [iota_single_apply, iota_single_apply]
  exact ind_of_signed ro r.val k.val (by have := r.isLt; omega) (by have := k.isLt; omega)

/-- One weight: `exp` of minus (the distance plus the penalty on the diagonal). -/
theorem weights_apply (mi : FVec Ideal S128x32 .f32) (mjT : FVec Ideal S32x256 .f32) (ro : ℕ) (h : ro + 128 ≤ 256)
    (r : Fin 128) (k : Fin 256) :
    weights mi mjT (BitVec.ofNat 32 ro) (ix2 r k)
      = Ideal.exp (-((∑ c : Fin 32, max (mi (ix2 r c) - mjT (ix2 c k)) (-(mi (ix2 r c) - mjT (ix2 c k))))
          + penalty * ind (ro + r.val) k.val)) := by
  unfold weights
  show Ideal.exp (Ideal.ofBits .f32 0x00000000#32
      - (dist mi mjT (ix2 r k) + Ideal.ofBits .f32 0x49742400#32 * mask (F := Ideal) (BitVec.ofNat 32 ro) (ix2 r k))) = _
  rw [dist_apply, mask_apply ro h, Ideal.ofBits_zero_f32, zero_sub]
  rfl

/-- The tile's value for local query row `r`: the sum of the weights over the 256 keys. -/
theorem tile_apply (mi : FVec Ideal S128x32 .f32) (mjT : FVec Ideal S32x256 .f32) (ro : ℕ) (h : ro + 128 ≤ 256)
    (u : Fin 1) (r : Fin 128) (z : Fin 1) :
    tile mi mjT (BitVec.ofNat 32 ro) (ix3 u r z)
      = ∑ k : Fin 256, Ideal.exp (-((∑ c : Fin 32, max (mi (ix2 r c) - mjT (ix2 c k)) (-(mi (ix2 r c) - mjT (ix2 c k))))
          + penalty * ind (ro + r.val) k.val)) := by
  unfold tile
  refine (shapeCast_ab_1ab_apply _ _ u r z).trans ?_
  refine (shapeCast_apply _ _ (ix2 r z) (ix1 r) (by
    rw [Shape.rowMajor_val_one, Shape.rowMajor_val_two]
    show r.val = r.val * 1 + z.val
    have := z.isLt; omega)).trans ?_
  refine (Ideal.multiReduction_add_single _ 0x00000000#32 reduces_S128x256_S128 (.inl rfl) rfl (ix1 r)).trans ?_
  refine Finset.sum_congr rfl fun (k : Fin 256) _ => ?_
  have hl : reduces_S128x256_S128.lift (ix1 r) k = ix2 r k :=
    funext fun a => Fin.ext (by match a with | ⟨0, _⟩ => rfl | ⟨1, _⟩ => rfl)
  rw [hl]
  exact weights_apply mi mjT ro h r k

/-- The tile of rows `ro …` of the slot at columns `o …` of `v4`, at local row `r`: the row sum of that slot's
    256 × 32 matrix at row `ro + r`. -/
theorem slotTile_apply (v4 : FVec Ideal S256x128 .f32) (o : ℕ) (ho : S256x128.Slices ![0, o] S256x32) (ho' : o + 32 ≤ 128)
    (ro : ℕ) (hro : S256x32.Slices ![ro, 0] S128x32) (hro' : ro + 128 ≤ 256) (u : Fin 1) (r : Fin 128) (z : Fin 1) :
    slotTile v4 o ho ro hro (BitVec.ofNat 32 ro) (ix3 u r z)
      = rowSum (fun i c => v4 (ix2 i ⟨o + c.val, by have := c.isLt; omega⟩)) ⟨ro + r.val, by have := r.isLt; omega⟩ := by
  unfold slotTile
  rw [tile_apply _ _ ro hro' u r z]
  unfold rowSum pairTerm
  refine Finset.sum_congr rfl fun k _ => ?_
  have e1 : ∀ c : Fin 32,
      extractStridedSlice S128x32 ![ro, 0] (extractStridedSlice S256x32 ![0, o] v4 ho) hro (ix2 r c)
        = v4 (ix2 ⟨ro + r.val, by have := r.isLt; omega⟩ ⟨o + c.val, by have := c.isLt; omega⟩) := fun c =>
    (slice2_axis0_apply ro _ hro r c ⟨ro + r.val, by have := r.isLt; omega⟩ rfl).trans
      (slice2_axis1_apply o v4 ho _ c ⟨o + c.val, by have := c.isLt; omega⟩ rfl)
  have e2 : ∀ c : Fin 32,
      transpose S32x256 [1, 0] (extractStridedSlice S256x32 ![0, o] v4 ho) transposes_S256x32_p1_0_S32x256 (ix2 c k)
        = v4 (ix2 k ⟨o + c.val, by have := c.isLt; omega⟩) := fun c =>
    (transpose_ix2_apply _ _ c k).trans (slice2_axis1_apply o v4 ho k c ⟨o + c.val, by have := c.isLt; omega⟩ rfl)
  simp only [e1, e2]

/-- The left operand's row coordinate at an output index is the output's row. -/
theorem prod_lhs_row (j : S256x128.Idx) (q : dot_S256x1024_S1024x128_S256x128_1_0_0_1_n_n.contr.Idx) : (dot_S256x1024_S1024x128_S256x128_1_0_0_1_n_n.lhsIdx j q 0).val = (j 0).val := by
  unfold DotDims.lhsIdx
  rw [dif_neg (show ¬(0 : Fin S256x1024.rank) ∈ dot_S256x1024_S1024x128_S256x128_1_0_0_1_n_n.lhsBatch by decide),
    dif_pos (show (0 : Fin S256x1024.rank) ∈ dot_S256x1024_S1024x128_S256x128_1_0_0_1_n_n.lhsNonContracting by decide)]
  rfl

/-- The right operand's column coordinate at an output index is the output's column. -/
theorem prod_rhs_col (j : S256x128.Idx) (q : dot_S256x1024_S1024x128_S256x128_1_0_0_1_n_n.contr.Idx) : (dot_S256x1024_S1024x128_S256x128_1_0_0_1_n_n.rhsIdx j q 1).val = (j 1).val := by
  unfold DotDims.rhsIdx
  rw [dif_neg (show ¬(1 : Fin S1024x128.rank) ∈ dot_S256x1024_S1024x128_S256x128_1_0_0_1_n_n.rhsBatch by decide),
    dif_pos (show (1 : Fin S1024x128.rank) ∈ dot_S256x1024_S1024x128_S256x128_1_0_0_1_n_n.rhsNonContracting by decide)]
  rfl

/-- The block product at row `i`, column `l`: the sum over the 1024 contracted entries (the change of float
    format in front of the product is the identity on the extended reals). -/
theorem prod_apply (X0 : Vec Ideal S256x1024 .f32) (X1 : Vec Ideal S1024x128 .f32) (i : Fin 256) (l : Fin 128) :
    k0_pay2 X0 X1 (ix2 i l) = ∑ a : Fin 1024, X0 (ix2 i a) * X1 (ix2 a l) := by
  unfold k0_pay2
  refine (Ideal.matmul_constant_zero_apply dot_S256x1024_S1024x128_S256x128_1_0_0_1_n_n none _ _ (ix2 i l)).trans ?_
  rw [← Equiv.sum_comp (ValueIdx.contrEquiv1 dot_S256x1024_S1024x128_S256x128_1_0_0_1_n_n 1024 rfl rfl).symm]
  refine Finset.sum_congr rfl fun k _ => ?_
  have hk := ValueIdx.contrEquiv1_symm_val dot_S256x1024_S1024x128_S256x128_1_0_0_1_n_n 1024 rfl rfl k
  have el : dot_S256x1024_S1024x128_S256x128_1_0_0_1_n_n.lhsIdx (ix2 i l) ((ValueIdx.contrEquiv1 dot_S256x1024_S1024x128_S256x128_1_0_0_1_n_n 1024 rfl rfl).symm k) = ix2 i k :=
    funext fun a => Fin.ext (by
      match a with
      | ⟨0, _⟩ => exact prod_lhs_row _ _
      | ⟨1, _⟩ => exact (dot_S256x1024_S1024x128_S256x128_1_0_0_1_n_n.lhsIdx_val_of_single rfl _ _).trans hk)
  have er : dot_S256x1024_S1024x128_S256x128_1_0_0_1_n_n.rhsIdx (ix2 i l) ((ValueIdx.contrEquiv1 dot_S256x1024_S1024x128_S256x128_1_0_0_1_n_n 1024 rfl rfl).symm k) = ix2 k l :=
    funext fun a => Fin.ext (by
      match a with
      | ⟨0, _⟩ => exact (dot_S256x1024_S1024x128_S256x128_1_0_0_1_n_n.rhsIdx_val_of_single rfl _ _).trans hk
      | ⟨1, _⟩ => exact prod_rhs_col _ _)
  rw [el, er]
  rfl

end Cert.PairwiseL1

end
-- ==== Proof.Block.lean ====
/-
  What one grid point leaves in its output buffer, as one function of the blocks it loaded.

  At a grid point the body has all of `x` (256 × 1024) and one block `Tb` of 128 columns of `T` (1024 × 128).
  Its output buffer is 1 × 256 × 4: entry `(0, i, s)` is sample `i`'s row sum in slot `s` of the block, that is
  over the 256 × 32 matrix whose entry `(i', c)` is the product `x · Tb` at row `i'`, column `32 s + c`.
  The body writes the buffer as eight columns of 128 rows (slot `s`, rows `0 … 127` or `128 … 255`); each is
  a tile of the tile module, and together they are this function.
-/
import proofs.«159920_j62869731279616_2_alg».proof.Proof.Gen.KernelIdeal.Frame
import proofs.«159920_j62869731279616_2_alg».proof.Proof.Tile

noncomputable section

namespace Cert.PairwiseL1

open Idealize.ShloMosaic Idealize.ShloMosaic.ValueIdx Cert.KernelIdeal Cert.KernelIdeal.Gen

/-- The output buffer of one grid point, from `x` and the block `Tb` of `T`'s columns. -/
def blockG (x : S256x1024.Idx → EReal) (Tb : S1024x128.Idx → EReal) : S1x256x4.Idx → EReal := fun y =>
  rowSum (fun i c => ∑ a : Fin 1024, x (ix2 i a) * Tb (ix2 a ⟨(y 2).val * 32 + c.val, by
    have h2 : (y 2).val < 4 := (y 2).isLt
    have := c.isLt
    omega⟩)) ⟨(y 1).val, (y 1).isLt⟩

/-- The tile of rows `ro …` of slot `s` of the block product is the buffer's function at those rows, slot `s`. -/
theorem slot_value (X0 : Vec Ideal S256x1024 .f32) (X1 : Vec Ideal S1024x128 .f32) (s : Fin 4) (o : ℕ) (hs : o = s.val * 32)
    (ho : S256x128.Slices ![0, o] S256x32) (ro : ℕ) (hro : S256x32.Slices ![ro, 0] S128x32) (hro' : ro + 128 ≤ 256)
    (u : Fin 1) (r : Fin 128) (z : Fin 1) :
    slotTile (k0_pay2 X0 X1) o ho ro hro (BitVec.ofNat 32 ro) (ix3 u r z)
      = blockG X0 X1 (ix3 (0 : Fin 1) ⟨ro + r.val, by have := r.isLt; omega⟩ s) := by
  subst hs
  rw [slotTile_apply _ _ ho (by have := s.isLt; omega) ro hro hro' u r z]
  unfold blockG
  simp only [prod_apply]

/-! ## The eight stores, each through its rectangle -/

theorem piece_s3_t1 (x0 : Vec Ideal S256x1024 .f32) (x1 : Vec Ideal S1024x128 .f32) (xx : S1x128x1.Idx) :
    k0_pay1 (k0_pay23 (k0_pay19 (k0_pay2 x0 x1)) (k0_pay20 (k0_pay2 x0 x1))) xx = blockG x0 x1 (r0_9.emb xx) := by
  obtain ⟨u, r, z, rfl⟩ : ∃ (u : Fin 1) (r : Fin 128) (z : Fin 1), xx = ix3 u r z := ⟨xx 0, xx 1, xx 2, eq_ix3 xx⟩
  rw [store_s3_t1]
  refine (slot_value x0 x1 3 96 (by decide) _ 128 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 128 + r.val = 128 + 1 * r.val; omega
  | ⟨2, _⟩ => show 3 = 3 + 1 * z.val; omega

theorem piece_s3_t0 (x0 : Vec Ideal S256x1024 .f32) (x1 : Vec Ideal S1024x128 .f32) (xx : S1x128x1.Idx) :
    k0_pay22 (k0_pay21 (k0_pay2 x0 x1)) (iota .tc S128x256 32 [0] iota_S128x256_d0_w32) 0#32 xx = blockG x0 x1 (r0_8.emb xx) := by
  obtain ⟨u, r, z, rfl⟩ : ∃ (u : Fin 1) (r : Fin 128) (z : Fin 1), xx = ix3 u r z := ⟨xx 0, xx 1, xx 2, eq_ix3 xx⟩
  rw [store_s3_t0]
  refine (slot_value x0 x1 3 96 (by decide) _ 0 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 0 + r.val = 0 + 1 * r.val; omega
  | ⟨2, _⟩ => show 3 = 3 + 1 * z.val; omega

theorem piece_s2_t1 (x0 : Vec Ideal S256x1024 .f32) (x1 : Vec Ideal S1024x128 .f32) (xx : S1x128x1.Idx) :
    k0_pay18 (k0_pay13 (k0_pay2 x0 x1)) (k0_pay14 (k0_pay2 x0 x1)) xx = blockG x0 x1 (r0_7.emb xx) := by
  obtain ⟨u, r, z, rfl⟩ : ∃ (u : Fin 1) (r : Fin 128) (z : Fin 1), xx = ix3 u r z := ⟨xx 0, xx 1, xx 2, eq_ix3 xx⟩
  rw [store_s2_t1]
  refine (slot_value x0 x1 2 64 (by decide) _ 128 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 128 + r.val = 128 + 1 * r.val; omega
  | ⟨2, _⟩ => show 2 = 2 + 1 * z.val; omega

theorem piece_s2_t0 (x0 : Vec Ideal S256x1024 .f32) (x1 : Vec Ideal S1024x128 .f32) (xx : S1x128x1.Idx) :
    k0_pay17 (k0_pay15 (k0_pay2 x0 x1)) (k0_pay16 (F := Ideal)) xx = blockG x0 x1 (r0_6.emb xx) := by
  obtain ⟨u, r, z, rfl⟩ : ∃ (u : Fin 1) (r : Fin 128) (z : Fin 1), xx = ix3 u r z := ⟨xx 0, xx 1, xx 2, eq_ix3 xx⟩
  rw [store_s2_t0]
  refine (slot_value x0 x1 2 64 (by decide) _ 0 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 0 + r.val = 0 + 1 * r.val; omega
  | ⟨2, _⟩ => show 2 = 2 + 1 * z.val; omega

theorem piece_s1_t1 (x0 : Vec Ideal S256x1024 .f32) (x1 : Vec Ideal S1024x128 .f32) (xx : S1x128x1.Idx) :
    k0_pay12 (k0_pay9 (k0_pay2 x0 x1)) (k0_pay10 (k0_pay2 x0 x1)) xx = blockG x0 x1 (r0_5.emb xx) := by
  obtain ⟨u, r, z, rfl⟩ : ∃ (u : Fin 1) (r : Fin 128) (z : Fin 1), xx = ix3 u r z := ⟨xx 0, xx 1, xx 2, eq_ix3 xx⟩
  rw [store_s1_t1]
  refine (slot_value x0 x1 1 32 (by decide) _ 128 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 128 + r.val = 128 + 1 * r.val; omega
  | ⟨2, _⟩ => show 1 = 1 + 1 * z.val; omega

theorem piece_s1_t0 (x0 : Vec Ideal S256x1024 .f32) (x1 : Vec Ideal S1024x128 .f32) (xx : S1x128x1.Idx) :
    k0_pay11 (k0_pay2 x0 x1) xx = blockG x0 x1 (r0_4.emb xx) := by
  obtain ⟨u, r, z, rfl⟩ : ∃ (u : Fin 1) (r : Fin 128) (z : Fin 1), xx = ix3 u r z := ⟨xx 0, xx 1, xx 2, eq_ix3 xx⟩
  rw [store_s1_t0]
  refine (slot_value x0 x1 1 32 (by decide) _ 0 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 0 + r.val = 0 + 1 * r.val; omega
  | ⟨2, _⟩ => show 1 = 1 + 1 * z.val; omega

theorem piece_s0_t1 (x0 : Vec Ideal S256x1024 .f32) (x1 : Vec Ideal S1024x128 .f32) (xx : S1x128x1.Idx) :
    k0_pay8 (k0_pay6 x0 x1) (iota .tc S128x256 32 [0] iota_S128x256_d0_w32) k0_pay7 xx = blockG x0 x1 (r0_3.emb xx) := by
  obtain ⟨u, r, z, rfl⟩ : ∃ (u : Fin 1) (r : Fin 128) (z : Fin 1), xx = ix3 u r z := ⟨xx 0, xx 1, xx 2, eq_ix3 xx⟩
  rw [store_s0_t1]
  refine (slot_value x0 x1 0 0 (by decide) _ 128 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 128 + r.val = 128 + 1 * r.val; omega
  | ⟨2, _⟩ => show 0 = 0 + 1 * z.val; omega

theorem piece_s0_t0 (x0 : Vec Ideal S256x1024 .f32) (x1 : Vec Ideal S1024x128 .f32) (xx : S1x128x1.Idx) :
    k0_pay5 x0 x1 xx = blockG x0 x1 (r0_2.emb xx) := by
  obtain ⟨u, r, z, rfl⟩ : ∃ (u : Fin 1) (r : Fin 128) (z : Fin 1), xx = ix3 u r z := ⟨xx 0, xx 1, xx 2, eq_ix3 xx⟩
  rw [store_s0_t0]
  refine (slot_value x0 x1 0 0 (by decide) _ 0 _ (by omega) u r z).trans ?_
  refine congrArg (blockG x0 x1) (funext fun a => Fin.ext ?_)
  have hu := u.isLt
  have hz := z.isLt
  match a with
  | ⟨0, _⟩ => show 0 = 0 + 1 * u.val; omega
  | ⟨1, _⟩ => show 0 + r.val = 0 + 1 * r.val; omega
  | ⟨2, _⟩ => show 0 = 0 + 1 * z.val; omega

/-! ## The buffer -/

theorem zeros2 : (![0, 0] : Fin 2 → Nat) = fun _ => 0 := funext fun a => by fin_cases a <;> rfl

/-- The body's eight stores leave the buffer at `blockG` of the two loaded blocks. -/
theorem out_eq_blockG (x0 : Vec Ideal S256x1024 .f32) (x1 : Vec Ideal S1024x128 .f32) :
    out0_2 x0 x1 = blockG x0 x1 := by
  funext y
  unfold out0_2
  simp only [View.ld_unit_zero (S := S256x1024) zeros2, View.ld_unit_zero (S := S1024x128) zeros2]
  refine View.canon_apply_of_pieces (Val := Elt Ideal) (blockG x0 x1) _ ?_ y (cover0_2 _ _ _ _ _ _ _ _ y)
  intro p hp
  simp only [List.mem_cons, List.mem_nil_iff, or_false] at hp
  rcases hp with rfl | rfl | rfl | rfl | rfl | rfl | rfl | rfl
  · exact piece_s3_t1 x0 x1
  · exact piece_s3_t0 x0 x1
  · exact piece_s2_t1 x0 x1
  · exact piece_s2_t0 x0 x1
  · exact piece_s1_t1 x0 x1
  · exact piece_s1_t0 x0 x1
  · exact piece_s0_t1 x0 x1
  · exact piece_s0_t0 x0 x1

end Cert.PairwiseL1

end
-- ==== Proof.Region.lean ====
/-
  The region's output array, as one function of the two argument arrays.

  The grid has 16 points; point `g` loads all of `x` and columns `128 g … 128 g + 127` of `T`, and writes block
  `g` of the 16 × 256 × 4 output. So entry `(g, i, s)` of the output is sample `i`'s row sum over the 256 × 32
  matrix whose entry `(i', c)` is the product `x · T` at row `i'`, column `128 g + 32 s + c`.
  Each point's buffer (the block module) is the restriction of this function to its block, the blocks cover the array,
  hence the array after the region is this function.
-/
import proofs.«159920_j62869731279616_2_alg».proof.Proof.Block

set_option maxRecDepth 16384

noncomputable section

namespace Cert.PairwiseL1

open Idealize.ShloMosaic Idealize.ShloMosaic.TcCoe Idealize.ShloMosaic.ValueIdx Idealize.SL.Sem
open Cert.KernelIdeal Cert.KernelIdeal.Gen
open Idealize.ShloMosaic.Pipeline (Dat)

/-- The region's output: entry `(g, i, s)` is sample `i`'s row sum in slot `4 g + s` of `x · T`. -/
def regionG (x : S256x1024.Idx → EReal) (T : S1024x2048.Idx → EReal) : S16x256x4.Idx → EReal := fun j =>
  rowSum (fun i c => ∑ a : Fin 1024, x (ix2 i a) * T (ix2 a ⟨(j 0).val * 128 + (j 2).val * 32 + c.val, by
    have h0 : (j 0).val < 16 := (j 0).isLt
    have h2 : (j 2).val < 4 := (j 2).isLt
    have := c.isLt
    omega⟩)) ⟨(j 1).val, (j 1).isLt⟩

/-- A point's buffer is the region's function on the point's block: stated over any loaded blocks `X0`, `X1` that
    are all of `x` and the `g`-th block of 128 columns of `T`, at a buffer index `y` and the array index `j` it lands on. -/
theorem blockG_eq_regionG (x : S256x1024.Idx → EReal) (T : S1024x2048.Idx → EReal)
    (X0 : S256x1024.Idx → EReal) (X1 : S1024x128.Idx → EReal) (g : ℕ) (hg : g < 16)
    (h0 : ∀ (i : Fin 256) (a : Fin 1024), X0 (ix2 i a) = x (ix2 i a))
    (h1 : ∀ (a : Fin 1024) (l : Fin 128), X1 (ix2 a l) = T (ix2 a ⟨g * 128 + l.val, by have := l.isLt; omega⟩))
    (y : S1x256x4.Idx) (j : S16x256x4.Idx) (hj0 : (j 0).val = g) (hj1 : (j 1).val = (y 1).val) (hj2 : (j 2).val = (y 2).val) :
    blockG X0 X1 y = regionG x T j := by
  unfold blockG regionG
  have hi : (⟨(y 1).val, (y 1).isLt⟩ : Fin 256) = ⟨(j 1).val, (j 1).isLt⟩ := Fin.ext hj1.symm
  rw [hi]
  refine congrArg (fun M => rowSum M _) (funext fun i' => funext fun c => Finset.sum_congr rfl fun a _ => ?_)
  rw [h0, h1]
  refine congrArg (fun l => x (ix2 i' a) * T (ix2 a l)) (Fin.ext ?_)
  show g * 128 + ((y 2).val * 32 + c.val) = (j 0).val * 128 + (j 2).val * 32 + c.val
  omega

variable (m : (ℓ : Loc nD τ sig) → Buf (Elt Ideal) ℓ) (ρ : Dev nD → PrngReg)

/-- The printed index maps over the grid: `x`'s window stays at block (0, 0), `T`'s moves along the columns with the
    point, the output's along its leading axis. -/
theorem index_maps : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of the region's function of the argument arrays as the region finds them. -/
theorem flushed_eq (c : Dev nD) (t : Fin cfg0.N) :
    (dats m 0 c).flushed 2 t
      = ((cfg0.win 2).blk t).view.read (Elt Ideal) (regionG (V m c main_arg0) (V m c main_arg1)) := by
  show (cfg0.win 2).cut (grid0.coords t) ((dats m 0 c).after 2 t) = _
  rw [after0_2, out_eq_blockG]
  obtain ⟨e0, e1, e2, e3, e4, e5, e6⟩ := index_maps t
  have ht : t.val < 16 := Nat.lt_of_lt_of_eq t.isLt N_0
  funext y
  show blockG (iblk m c 0 t) (iblk m c 1 t) y
    = regionG (V m c main_arg0) (V m c main_arg1) (((cfg0.win 2).blk t).view.emb y)
  refine blockG_eq_regionG (V m c main_arg0) (V m c main_arg1) (iblk m c 0 t) (iblk m c 1 t) t.val ht ?_ ?_ y _ ?_ ?_ ?_
  · intro i a
    show V m c main_arg0 (((cfg0.win 0).blk t).view.emb (ix2 i a)) = V m c main_arg0 (ix2 i a)
    refine congrArg (V m c main_arg0) (funext fun ax => Fin.ext ?_)
    match ax with
    | ⟨0, _⟩ => show win0_0.index t (0 : Fin 2) * 256 + 1 * i.val = i.val; omega
    | ⟨1, _⟩ => show win0_0.index t (1 : Fin 2) * 1024 + 1 * a.val = a.val; omega
  · intro a l
    show V m c main_arg1 (((cfg0.win 1).blk t).view.emb (ix2 a l)) = V m c main_arg1 (ix2 a ⟨t.val * 128 + l.val, _⟩)
    refine congrArg (V m c main_arg1) (funext fun ax => Fin.ext ?_)
    match ax with
    | ⟨0, _⟩ => show win0_1.index t (0 : Fin 2) * 1024 + 1 * a.val = a.val; omega
    | ⟨1, _⟩ => show win0_1.index t (1 : Fin 2) * 128 + 1 * l.val = t.val * 128 + l.val; omega
  · show win0_2.index t (0 : Fin 3) * 1 + 1 * (y 0).val = t.val
    have hy : (y 0).val < 1 := (y 0).isLt
    omega
  · show win0_2.index t (1 : Fin 3) * 256 + 1 * (y 1).val = (y 1).val
    omega
  · show win0_2.index t (2 : Fin 3) * 4 + 1 * (y 2).val = (y 2).val
    omega

/-- An index of the output array is in point `t`'s block iff each coordinate is in the block's range on its axis. -/
theorem mem_block (t : Fin cfg0.N) (i : S16x256x4.Idx) :
    i ∈ ((cfg0.win 2).blk t).view.set ↔ ∀ a : Fin 3, win0_2.index t a * S1x256x4.size a ≤ (i a).val
      ∧ (i a).val < win0_2.index t a * S1x256x4.size a + S1x256x4.size a := by
  show i ∈ ((View.whole main_v0).slice (win0_2.rect t)).set ↔ _
  rw [View.set_slice_whole, Rect.mem_set_unit]
  exact Iff.rfl

/-- Every index of the output array is in the block of the point its leading coordinate names. -/
theorem covered (i : S16x256x4.Idx) :
    ∃ t : Fin cfg0.N, (cfg0.win 2).flush t = true ∧ i ∈ ((cfg0.win 2).blk t).view.set := by
  have h0 : (i 0).val < 16 := (i 0).isLt
  have h1 : (i 1).val < 256 := (i 1).isLt
  have h2 : (i 2).val < 4 := (i 2).isLt
  let t : Fin cfg0.N := ⟨(i 0).val, by rw [show cfg0.N = 16 from N_0]; exact h0⟩
  refine ⟨t, flush0_2 t, ?_⟩
  rw [mem_block]
  obtain ⟨e0, e1, e2, e3, e4, e5, e6⟩ := index_maps t
  have et : t.val = (i 0).val := rfl
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 4 ≤ (i 2).val ∧ (i 2).val < win0_2.index t (2 : Fin 3) * 4 + 4; omega

/-- The output array after the region is the region's function of the argument arrays. -/
theorem region_array (c : Dev nD) :
    (dats m 0 c).arrAt 2 cfg0.N = regionG (V m c main_arg0) (V m c main_arg1) :=
  (dats m 0 c).arrAt_eq_of_cover 2 (regionG (V m c main_arg0) (V m c main_arg1)) (fun t _ => flushed_eq m c t) covered

end Cert.PairwiseL1

end
-- ==== Proof.Tail.lean ====
/-
  The kernel program's result.

  After the region the program transposes the 16 × 256 × 4 output to 256 × 16 × 4, views it as 256 × 64 (so column
  `4 g + s` is entry `(g, ·, s)`), and joins it to the right of `x`. The region's output is known as one function of
  the arguments (the region module), the three operations after it are applied to that function, and every weakly fair
  execution ends with the result buffer at that value and the arguments unchanged.
-/
import proofs.«159920_j62869731279616_2_alg».proof.Proof.Region
import Idealize.ShloMosaic.Lib.StableHlo.Run

set_option maxRecDepth 16384

noncomputable section

namespace Cert.PairwiseL1

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

/-- The 256 × 64 array the kernel program forms from the region's output: transposed, then viewed flat. -/
def kernelSlots (x : S256x1024.Idx → EReal) (T : S1024x2048.Idx → EReal) : S256x64.Idx → EReal :=
  shapeCast S256x64 (transpose S256x16x4 [1, 0, 2] (regionG x T) transposes_S16x256x4_S256x16x4_1_0_2)
    shapeCasts_S256x16x4_S256x64

/-- The kernel program's result as a function of the arguments: `x` with the 64 slot columns joined on the right. -/
def kernelResult (x : S256x1024.Idx → EReal) (T : S1024x2048.Idx → EReal) : S256x1088.Idx → EReal :=
  concatenate S256x1088 1 [⟨S256x1024, x⟩, ⟨S256x64, kernelSlots x T⟩] concatenates_S256x1024_S256x64_S256x1088_d1

variable (m : (ℓ : Loc nD τ sig) → Buf (Elt Ideal) ℓ) (ρ : Dev nD → PrngReg)

/-- The result buffer after the operations that follow the region. -/
theorem tail_value (c : Dev nD) :
    Pipeline.afterTail₀ cfgs (dats m) 0 (V0 m) [hostOps1] c main_v3
      = kernelResult (V m c main_arg0) (V m c main_arg1) := by
  unfold Pipeline.afterTail₀
  show StableHlo.after hostOps1 _ (Proc.devRef .tc main_v3) = _
  after_results
  have h0 : Pipeline.withArrays (cfgs 0).spec c (V0 m c) (fun w => (dats m 0 c).arrAt w (cfgs 0).N) (Proc.devRef .tc main_arg0)
      = V m c main_arg0 :=
    (Pipeline.withArrays_arr spec0 launch0.win.arr_inj c _ _ 0).trans (((dats m 0 c).arrAt_in 0 rfl _).trans (A_eq m c 0))
  have h2 : Pipeline.withArrays (cfgs 0).spec c (V0 m c) (fun w => (dats m 0 c).arrAt w (cfgs 0).N) (Proc.devRef .tc main_v0)
      = regionG (V m c main_arg0) (V m c main_arg1) :=
    (Pipeline.withArrays_arr spec0 launch0.win.arr_inj c _ _ 2).trans (region_array m c)
  rw [h0, h2]
  rfl

/-- Every weakly fair execution of the kernel program ends with the result at `kernelResult` of the arguments and
    the arguments unchanged. -/
theorem kernel_run : θ_run defs (onTc (τ := τ) (main (F := Ideal))) ⟨m, fun _ => 0, ρ⟩ (fun r => ∀ c : Dev nD,
      r.2.mem ((c.tc : Thread nD τ).loc main_v3)
        = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v3 (Pipeline.mem_restRefs_of main_v3 rfl (by decide))).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.PairwiseL1

end
-- ==== Proof.RefValue.lean ====
/-
  The reference's per-slot values, read at an index.

  The reference forms the whole product `x · T` (256 × 2048), views it as 256 × 64 × 32 (sample, slot, feature),
  takes for every pair of samples and every slot the L1 distance over the 32 features, adds 10⁶ on the diagonal
  (the identity matrix, broadcast over the slots), negates, exponentiates and sums over the second sample.
  Entry `(p, b)` of that 256 × 64 array is sample `p`'s row sum over slot `b`'s 256 × 32 matrix, whose entry
  `(i, c)` is the product at row `i`, column `32 b + c`.
-/
import proofs.«159920_j62869731279616_2_alg».proof.Proof.Gen.ReferenceIdeal.Read
import proofs.«159920_j62869731279616_2_alg».proof.Proof.Spec
import Idealize.ShloMosaic.Lib.ValueIdx
import Idealize.ShloMosaic.PureOps.Ideal.Laws

noncomputable section

namespace Cert.PairwiseL1.Ref

open Idealize.ShloMosaic Idealize.ShloMosaic.ValueIdx Cert.PairwiseL1
open Cert.ReferenceIdeal Cert.ReferenceIdeal.Gen Cert.ReferenceIdeal.Read

/-- Slot `b`'s matrix of the product `x · T`. -/
def slotMatrix (x : S256x1024.Idx → EReal) (T : S1024x2048.Idx → EReal) (b : Fin 64) : Fin 256 → Fin 32 → EReal :=
  fun i c => ∑ a : Fin 1024, x (ix2 i a) * T (ix2 a ⟨b.val * 32 + c.val, by have := b.isLt; have := c.isLt; omega⟩)

variable (x : (⟨S256x1024, .f32⟩ : BufTy).Contents (Elt Ideal)) (T : (⟨S1024x2048, .f32⟩ : BufTy).Contents (Elt Ideal))

/-- The product viewed as sample × slot × feature, at `(p, b, c)`: row `p`, column `32 b + c` of `x · T`. -/
theorem product_apply (p : Fin 256) (b : Fin 64) (c : Fin 32) :
    val_main_v1 (F := Ideal) x T (ix3 p b c) = slotMatrix x T b p c := by
  have hp := p.isLt
  have hb := b.isLt
  have hc := c.isLt
  rw [val_main_v1_apply, val_main_v0_apply]
  unfold slotMatrix
  refine Finset.sum_congr rfl fun a _ => ?_
  have el : lidx_main_v0 (idx_main_v1 (ix3 p b c)) a = ix2 p a := funext fun ax => Fin.ext (by
    match ax with
    | ⟨0, _⟩ => show ((p.val * 64 + b.val) * 32 + c.val) / 2048 = p.val; omega
    | ⟨1, _⟩ => rfl)
  have er : ridx_main_v0 (idx_main_v1 (ix3 p b c)) a
      = ix2 a ⟨b.val * 32 + c.val, by omega⟩ := funext fun ax => Fin.ext (by
    match ax with
    | ⟨0, _⟩ => rfl
    | ⟨1, _⟩ => show ((p.val * 64 + b.val) * 32 + c.val) % 2048 = b.val * 32 + c.val; omega)
  rw [el, er]

/-- The L1 distance of samples `p` and `k` in slot `b`. -/
theorem distance_apply (p : Fin 256) (b : Fin 64) (k : Fin 256) :
    val_main_v9 (F := Ideal) x T (ix3 p b k)
      = ∑ c : Fin 32, max (slotMatrix x T b p c - slotMatrix x T b k c) (-(slotMatrix x T b p c - slotMatrix x T b k c)) := by
  rw [val_main_v9_apply]
  show Ideal.ofBits .f32 0x00000000#32 + _ = _
  rw [Ideal.ofBits_zero_f32, zero_add]
  refine Finset.sum_congr rfl fun (c : Fin 32) _ => ?_
  have ej : idx_main_v9 (ix3 p b k) c = ix4 p b c k := funext fun ax => Fin.ext (by
    match ax with
    | ⟨0, _⟩ => rfl
    | ⟨1, _⟩ => rfl
    | ⟨2, _⟩ => rfl
    | ⟨3, _⟩ => rfl)
  rw [ej]
  rw [val_main_v8_apply, val_main_v7_apply, val_main_v5_apply, val_main_v2_apply, val_main_v6_apply, val_main_v4_apply, val_main_v3_apply]
  have e5 : idx_main_v2 (idx_main_v5 (ix4 p b c k)) = ix3 p b c := funext fun ax => Fin.ext (by
    match ax with
    | ⟨0, _⟩ => rfl
    | ⟨1, _⟩ => rfl
    | ⟨2, _⟩ => rfl)
  have e6 : idx_main_v3 (idx_main_v4 (idx_main_v6 (ix4 p b c k))) = ix3 k b c := funext fun ax => Fin.ext (by
    match ax with
    | ⟨0, _⟩ => rfl
    | ⟨1, _⟩ => rfl
    | ⟨2, _⟩ => rfl)
  rw [e5, e6, product_apply, product_apply]
  rfl

/-- The diagonal term of samples `p` and `k` (the same in every slot). -/
theorem diagonal_apply (p : Fin 256) (b : Fin 64) (k : Fin 256) :
    val_main_v19 (F := Ideal) (ix3 p b k) = penalty * ind p.val k.val := by
  simp only [val_main_v19_apply, val_main_v18_apply, val_main_v17_apply, val_main_v16_apply, val_main_v15_apply,
    val_main_v14_apply, val_main_v13_apply, val_main_v12_apply, val_main_v11_apply, val_main_v10_apply,
    val_main_c_apply, val_main_cst_0_apply]
  exact congrArg (fun z => Ideal.ofBits .f32 0x49742400#32 * z) (ind_of_unsigned p.val k.val (by have := p.isLt; omega) (by have := k.isLt; omega))

/-- One weight. -/
theorem weight_apply (p : Fin 256) (b : Fin 64) (k : Fin 256) :
    val_main_v22 (F := Ideal) x T (ix3 p b k) = pairTerm (slotMatrix x T b) p k := by
  show Ideal.exp (-(val_main_v9 (F := Ideal) x T (ix3 p b k) + val_main_v19 (F := Ideal) (ix3 p b k))) = _
  rw [distance_apply, diagonal_apply]
  rfl

/-- The reference's 256 × 64 array at `(p, b)`: sample `p`'s row sum over slot `b`'s matrix. -/
theorem slots_apply (p : Fin 256) (b : Fin 64) :
    val_main_v23 (F := Ideal) x T (ix2 p b) = rowSum (slotMatrix x T b) p := by
  rw [val_main_v23_apply]
  show Ideal.ofBits .f32 0x00000000#32 + _ = _
  rw [Ideal.ofBits_zero_f32, zero_add]
  unfold rowSum
  refine Finset.sum_congr rfl fun (k : Fin 256) _ => ?_
  have ej : idx_main_v23 (ix2 p b) k = ix3 p b k := funext fun ax => Fin.ext (by
    match ax with
    | ⟨0, _⟩ => rfl
    | ⟨1, _⟩ => rfl
    | ⟨2, _⟩ => rfl)
  rw [ej]
  exact weight_apply x T p b k

end Cert.PairwiseL1.Ref

end
-- ==== Proof.Bridge.lean ====
/-
  The two programs' results are one function of the arguments.

  The kernel program's 256 × 64 array at `(p, b)` is entry `(b / 4, p, b mod 4)` of the region's output, that is
  sample `p`'s row sum over the matrix of columns `128 (b / 4) + 32 (b mod 4) + c = 32 b + c` of `x · T`:
  slot `b`'s matrix, which is what the reference's array holds at `(p, b)`. Both programs then join that array to
  the right of `x`.
-/
import proofs.«159920_j62869731279616_2_alg».proof.Proof.Tail
import proofs.«159920_j62869731279616_2_alg».proof.Proof.RefValue

noncomputable section

namespace Cert.PairwiseL1

open Idealize.ShloMosaic Idealize.ShloMosaic.ValueIdx

/-- The kernel program's 256 × 64 array at `(p, b)`: sample `p`'s row sum over slot `b`'s matrix. -/
theorem kernelSlots_apply (x : Cert.KernelIdeal.S256x1024.Idx → EReal) (T : Cert.KernelIdeal.S1024x2048.Idx → EReal)
    (p : Fin 256) (b : Fin 64) :
    kernelSlots x T (ix2 p b) = rowSum (Ref.slotMatrix x T b) p := by
  have hp := p.isLt
  have hb := b.isLt
  unfold kernelSlots
  refine (shapeCast_apply _ _ (ix2 p b)
    (ix3 p (⟨b.val / 4, by omega⟩ : Fin 16) (⟨b.val % 4, by omega⟩ : Fin 4)) (by
      rw [Shape.rowMajor_val_three, Shape.rowMajor_val_two]
      show (p.val * 16 + b.val / 4) * 4 + b.val % 4 = p.val * 64 + b.val
      omega)).trans ?_
  refine (transpose_apply _ _ _ (ix3 p (⟨b.val / 4, by omega⟩ : Fin 16) (⟨b.val % 4, by omega⟩ : Fin 4))
    (ix3 (⟨b.val / 4, by omega⟩ : Fin 16) p (⟨b.val % 4, by omega⟩ : Fin 4))
    (fun bb => match bb with | ⟨0, _⟩ => rfl | ⟨1, _⟩ => rfl | ⟨2, _⟩ => rfl)).trans ?_
  unfold regionG Ref.slotMatrix
  refine congrArg (fun M => rowSum M p) (funext fun i => funext fun c => Finset.sum_congr rfl fun a _ => ?_)
  refine congrArg (fun l => x (ix2 i a) * T (ix2 a l)) (Fin.ext ?_)
  show b.val / 4 * 128 + b.val % 4 * 32 + c.val = b.val * 32 + c.val
  omega

/-- The two 256 × 64 arrays are equal. -/
theorem kernelSlots_eq (x : Cert.KernelIdeal.S256x1024.Idx → EReal) (T : Cert.KernelIdeal.S1024x2048.Idx → EReal) :
    kernelSlots x T = Cert.ReferenceIdeal.Read.val_main_v23 (F := Ideal) x T := by
  funext j
  obtain ⟨p, b, rfl⟩ : ∃ (p : Fin 256) (b : Fin 64), j = ix2 p b := ⟨j 0, j 1, eq_ix2 j⟩
  rw [kernelSlots_apply, Ref.slots_apply]

/-- The two programs' results are equal: the same array joined to the right of the same `x`. -/
theorem kernelResult_eq (x : Cert.KernelIdeal.S256x1024.Idx → EReal) (T : Cert.KernelIdeal.S1024x2048.Idx → EReal) :
    kernelResult x T = Cert.ReferenceIdeal.Read.val_main_v24 (F := Ideal) x T := by
  unfold kernelResult Cert.ReferenceIdeal.Read.val_main_v24
  rw [kernelSlots_eq]

end Cert.PairwiseL1

end
-- ==== Proof.lean ====
/-
  Pairwise-L1 minibatch features: the kernel program against its reference, on the extended reals.

  Both programs compute, for 256 samples with 1024 inputs each and a 1024 × 2048 matrix `T`, the product
  `m = x · T` read as 64 slots of 32 features per sample, and for every sample `i` and slot `b`
      o[i, b] = Σ_k exp (-(Σ_c |m[i, b, c] - m[k, b, c]| + 10⁶ · [i = k])),
  the sum over all samples `k`; the result is `x` with the 64 columns `o` joined on its right.

  The reference does this on whole arrays. The kernel program walks a grid of 16 points; point `g` multiplies `x`
  by columns `128 g … 128 g + 127` of `T` (four slots), and for each slot and each half of the samples forms the
  distances to all 256 samples, the weights and their sum; the 16 × 256 × 4 output is then transposed and viewed as
  256 × 64. On the extended reals the change of float format in front of the product is the identity, the products and
  sums are the same sums in another grouping, the kernel's `0 - v` is the reference's `-v`, and the two ways of
  turning the comparison `i = k` into a float (signed after widening, or unsigned) both give the indicator: the two
  results are one function of the arguments, index by index, with no use of the inputs' finiteness.

  Modules: the specification (the row sum and the indicator), one tile of the kernel body read at an index, the
  output buffer of one grid point, the region's output array, the program's result after the region, the reference's
  array read at an index, and the equality of the two. The three runs (terminating, no fault, arguments unchanged) are
  the generated frames of the two kernel programs and the reference's generated run.
-/
import proofs.«159920_j62869731279616_2_alg».proof.Defs
import proofs.«159920_j62869731279616_2_alg».proof.Proof.Gen.Kernel
import proofs.«159920_j62869731279616_2_alg».proof.Proof.Gen.Kernel.Skeleton
import proofs.«159920_j62869731279616_2_alg».proof.Proof.Gen.Kernel.Launch
import proofs.«159920_j62869731279616_2_alg».proof.Proof.Gen.Kernel.Points
import proofs.«159920_j62869731279616_2_alg».proof.Proof.Gen.Kernel.Frame
import proofs.«159920_j62869731279616_2_alg».proof.Proof.Gen.KernelIdeal
import proofs.«159920_j62869731279616_2_alg».proof.Proof.Gen.KernelIdeal.Skeleton
import proofs.«159920_j62869731279616_2_alg».proof.Proof.Gen.KernelIdeal.Launch
import proofs.«159920_j62869731279616_2_alg».proof.Proof.Gen.KernelIdeal.Points
import proofs.«159920_j62869731279616_2_alg».proof.Proof.Gen.KernelIdeal.Frame
import proofs.«159920_j62869731279616_2_alg».proof.Proof.Gen.ReferenceIdeal
import proofs.«159920_j62869731279616_2_alg».proof.Proof.Gen.ReferenceIdeal.Run
import proofs.«159920_j62869731279616_2_alg».proof.Proof.Gen.ReferenceIdeal.Read
import proofs.«159920_j62869731279616_2_alg».proof.Proof.Gen.Pre_finite_inputs
import proofs.«159920_j62869731279616_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote no operation. -/
theorem preserves : Cert.preserves_Kernel_KernelIdeal := trivial

/-- From memories agreeing on the arguments both programs end at the same result: the kernel program at its
    result as a function of the arguments, the reference at its own, and the two functions are equal. -/
theorem algebraic : Cert.algebraic_KernelIdeal_ReferenceIdeal := by
  intro m ρ m' ρ' _ hagree
  refine ⟨fun c => Cert.PairwiseL1.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PairwiseL1.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  exact (Cert.PairwiseL1.kernelResult_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
